-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x512x128 : Shape := ⟨3, ![2048, 512, 128]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x512x128 : S_.BroadcastsInDim S2048x512x128 (![] : Fin 0 → Fin S2048x512x128.rank)
  reducesTo_S2048x512x128_S_d0_1_2 : S2048x512x128.ReducesTo [0, 1, 2] S_

variable [Facts]

def fn {F : FTy → Type} [FloatOps F] (main_arg0 : FVec F S2048x512 .f32) (main_arg1 : FVec F S2048x512x128 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512x128 .f32 := Host.absf main_arg1
  let main_cst_0 : FVec F S_ .f32 := constant S_ .f32 0x7F800000#32
  let main_v5 : FVec F S2048x512x128 .f32 := broadcastInDim S2048x512x128 ![] bcast_S_S2048x512x128 main_cst_0
  let main_v6 : IVec S2048x512x128 1 := cmpf .olt main_v4 main_v5
  let main_c_1 : IVec S_ 1 := constantI S_ 1 1#1
  let main_v7 : IVec S_ 1 := (fun x v => Host.reduce IntOp.andi x v reducesTo_S2048x512x128_S_d0_1_2 h_S_) main_v6 main_c_1
  let main_v8 : IVec S_ 1 := andi main_v3 main_v7
  main_v8
-- ==== Kernel.lean ====
abbrev S2048x512 : Shape := ⟨2, ![2048, 512]⟩
abbrev S2048x512x128 : Shape := ⟨3, ![2048, 512, 128]⟩
abbrev S32x512 : Shape := ⟨2, ![32, 512]⟩
abbrev S32x512x128 : Shape := ⟨3, ![32, 512, 128]⟩
abbrev S32x512x1 : Shape := ⟨3, ![32, 512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S2048x512x128, .f32⟩
  | .hbm, ⟨2, _⟩ => ⟨S2048x512, .f32⟩
  | .hbm, ⟨3, _⟩ => ⟨S2048x512x128, .f32⟩
  | .local _ .vmem, ⟨0, _⟩ => ⟨S32x512, .f32⟩
  | .local _ .vmem, ⟨1, _⟩ => ⟨S32x512, .f32⟩
  | .local _ .vmem, ⟨2, _⟩ => ⟨S32x512x128, .f32⟩
  | .local _ .vmem, ⟨3, _⟩ => ⟨S32x512x128, .f32⟩
  | .local _ .vmem, ⟨4, _⟩ => ⟨S32x512, .f32⟩
  | .local _ .vmem, ⟨5, _⟩ => ⟨S32x512, .f32⟩
  | .local _ .vmem, ⟨6, _⟩ => ⟨S32x512x128, .f32⟩
  | .local _ .vmem, ⟨7, _⟩ => ⟨S32x512x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x512_S32x512_0_0 : ∀ a, (![0, 0] : Fin 2 → Nat) a + S32x512.size a ≤ S32x512.size a
  h_S32x512 : 0 < S32x512.numel
  shapeCasts_S32x512_S32x512x1 : S32x512.ShapeCasts S32x512x1
  inb_S32x512x128_S32x512x128_0_0_0 : ∀ a, (![0, 0, 0] : Fin 3 → Nat) a + S32x512x128.size a ≤ S32x512x128.size a
  h_S32x512x128 : 0 < S32x512x128.numel
  broadcasts_S32x512x1_S32x512x128 : S32x512x1.Broadcasts S32x512x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S2048x512.size a
  hwx0_0 : ∀ i : grid0.Coords, EltTy.bits .f32 = 32 ∨ (Rect.block (s := S2048x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512x128.size a ≤ S2048x512x128.size a
  hwx0_1 : ∀ i : grid0.Coords, EltTy.bits .f32 = 32 ∨ (Rect.block (s := S2048x512x128) S32x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S2048x512.size a
  hwx0_2 : ∀ i : grid0.Coords, EltTy.bits .f32 = 32 ∨ (Rect.block (s := S2048x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512x128.size a ≤ S2048x512x128.size a
  hwx0_3 : ∀ i : grid0.Coords, EltTy.bits .f32 = 32 ∨ (Rect.block (s := S2048x512x128) S32x512x128.size (cc0_transform_3 i) (hinb0_3 i)).WholeWords (EltTy.packing .f32)

variable [Facts₀]

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S32x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S32x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x512 : Shape := ⟨2, ![2048, 512]⟩
abbrev S2048x512x128 : Shape := ⟨3, ![2048, 512, 128]⟩
abbrev S_ : Shape := ⟨0, ![]⟩
abbrev S2048x512x1 : Shape := ⟨3, ![2048, 512, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512x128, .f32⟩
  | .hbm, ⟨2, _⟩ => ⟨S_, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .i1⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512x1, .f32⟩
  | .hbm, ⟨25, _⟩ => ⟨S2048x512x128, .f32⟩
  | .hbm, ⟨26, _⟩ => ⟨S2048x512x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩

abbrev nD : Nat := 1
abbrev τ : Topo := Topo.v7x

variable {F : FTy → Type} [FloatOps F]

class Facts₀ : Prop where
  bcast_S_S2048x512 : S_.BroadcastsInDim S2048x512 (![] : Fin 0 → Fin S2048x512.rank)
  bcast_S2048x512_S2048x512x1_0_1 : S2048x512.BroadcastsInDim S2048x512x1 (![0, 1] : Fin 2 → Fin S2048x512x1.rank)
  bcast_S2048x512x1_S2048x512x128_0_1_2 : S2048x512x1.BroadcastsInDim S2048x512x128 (![0, 1, 2] : Fin 3 → Fin S2048x512x128.rank)

variable [Facts₀]

class Facts : Prop extends Facts₀ where

variable [Facts]
-- ==== Proof.Lanes.lean ====
/-
  The two element functions of the differential softplus, and the two arrays they make.

  For an input row array `x` of shape [2048, 512] and a derivative array `d` of shape [2048, 512, 128] the results are
    * `softplus x`, element by element, in the stable spelling  max(x, 0) + log(1 + e^(-|x|))  (guarded by the test
      `x ≠ x`, which selects `x + 0` and is never true of an extended real), and
    * `sigmoid(x)[r, k] · d[r, k, q]`: every entry of `d` scaled by the logistic function of the row entry above it.

  The kernel body writes `0 - |x|` where the host writes the negation `-|x|`, tests with the ordered "not equal" where the
  host tests with the unordered one, and uses the single logistic operation where the host expands
  1 / (1 + e^(-x)).  On the extended reals these are the same functions: `0 - y = -y` for every `y`, infinities included; the
  two comparisons are both `x ≠ y` on a linear order; and the logistic function is DEFINED as that quotient, the word of
  1.0 denoting the real number one.  No finiteness of the inputs is used anywhere.
-/
import Idealize.ShloMosaic.PureOps.Ideal
import Idealize.ShloMosaic.PureOps.Ideal.Laws
import Idealize.ShloMosaic.PureOps.IdealRules
import Idealize.ShloMosaic.PureOps.Vector

noncomputable section

namespace Cert.DiffSoftplus

open Idealize.ShloMosaic

variable {F : FTy → Type} [FloatOps F]

/-! ## The element functions, as the kernel body spells them -/

/-- Stable softplus of one element: `max(x, 0) + log1p(exp(0 - |x - 0|))`, under the guard `x - 0 ≠ x - 0` that would
    select `x + 0`. -/
def softplus (x : F .f32) : F .f32 :=
  Scalar.select
    (FloatOps.cmpf .one (FloatOps.subf x (Scalar.ofBits .f32 0x00000000#32)) (FloatOps.subf x (Scalar.ofBits .f32 0x00000000#32)))
    (FloatOps.addf x (Scalar.ofBits .f32 0x00000000#32))
    (FloatOps.addf (FloatOps.maximumf x (Scalar.ofBits .f32 0x00000000#32))
      (FloatOps.log1p (FloatOps.exp (FloatOps.subf (Scalar.ofBits .f32 0x00000000#32)
        (FloatOps.absf (FloatOps.subf x (Scalar.ofBits .f32 0x00000000#32)))))))

/-- One entry `d` of the derivative array scaled by the logistic function of the row entry `x` above it. -/
def gate (x d : F .f32) : F .f32 := FloatOps.mulf (FloatOps.logistic x) d

/-! ## The same two functions, as the host program spells them -/

/-- Softplus of one element in the host's operations: the unordered comparison, and `-|x - 0|` by negation. -/
def hostSoftplus (x : F .f32) : F .f32 :=
  Scalar.select
    (FloatOps.cmpf .une (FloatOps.subf x (FloatOps.ofBits .f32 0x00000000#32)) (FloatOps.subf x (FloatOps.ofBits .f32 0x00000000#32)))
    (FloatOps.addf x (FloatOps.ofBits .f32 0x00000000#32))
    (FloatOps.addf (FloatOps.maximumf x (FloatOps.ofBits .f32 0x00000000#32))
      (FloatOps.hostUnary .log1p (FloatOps.hostUnary .exp (FloatOps.hostNegf
        (FloatOps.hostAbsf (FloatOps.subf x (FloatOps.ofBits .f32 0x00000000#32)))))))

/-- The scaled entry in the host's operations: the logistic function expanded as `1 / (1 + exp(-x))`. -/
def hostGate (x d : F .f32) : F .f32 :=
  FloatOps.mulf
    (FloatOps.hostDivf (FloatOps.ofBits .f32 0x3F800000#32)
      (FloatOps.addf (FloatOps.ofBits .f32 0x3F800000#32) (FloatOps.hostUnary .exp (FloatOps.hostNegf x))))
    d

/-! ## On the extended reals the two spellings are one function -/

/-- The word of 1.0 denotes the real number one. -/
theorem one_word : Ideal.ofBits .f32 0x3F800000#32 = 1 := IdealRules.sign_bit.ideal_onePat .f32

/-- Negation is subtraction from the zero word: `-y = 0 - y` for every extended real `y`, the infinities included. -/
theorem neg_eq_zero_word_sub (y : Ideal .f32) :
    FloatOps.hostNegf y = FloatOps.subf (Scalar.ofBits .f32 0x00000000#32) y := by
  show -y = Ideal.ofBits .f32 0x00000000#32 - y
  rw [Ideal.ofBits_zero_f32, sub_eq_add_neg, zero_add]

/-- The host's softplus is the kernel's: the two "not equal" tests are the same test on a linear order, the exponential
    and `log1p` are the same functions on either side, and `-|x|` is `0 - |x|`. -/
theorem hostSoftplus_eq (x : Ideal .f32) : hostSoftplus x = softplus x := by
  unfold hostSoftplus softplus
  rw [neg_eq_zero_word_sub]
  rfl

/-- The host's quotient `1 / (1 + exp(-x))` is the logistic function, which is defined as that quotient. -/
theorem hostGate_eq (x d : Ideal .f32) : hostGate x d = gate x d := by
  unfold hostGate gate
  show Ideal.div (Ideal.ofBits .f32 0x3F800000#32) (Ideal.ofBits .f32 0x3F800000#32 + Ideal.exp (-x)) * d
      = Ideal.logistic x * d
  rw [one_word]
  rfl

/-! ## The two result arrays -/

/-- The row array's shape and the derivative array's. -/
abbrev Rows : Shape := ⟨2, ![2048, 512]⟩
abbrev Cube : Shape := ⟨3, ![2048, 512, 128]⟩

/-- The row entry above an entry of the derivative array: its first two coordinates. -/
abbrev rowOf (i : Cube.Idx) : Rows.Idx := fun a => match a with
  | ⟨0, _⟩ => ⟨(i 0).val, (i 0).isLt⟩
  | ⟨1, _⟩ => ⟨(i 1).val, (i 1).isLt⟩

/-- Softplus of the whole row array. -/
abbrev softplusArr (x : Rows.Idx → F .f32) : Rows.Idx → F .f32 := fun i => softplus (x i)

/-- The derivative array with every entry scaled by the logistic function of the row entry above it. -/
abbrev gatedArr (x : Rows.Idx → F .f32) (d : Cube.Idx → F .f32) : Cube.Idx → F .f32 :=
  fun i => gate (x (rowOf i)) (d i)

end Cert.DiffSoftplus

end
-- ==== Proof.SoftplusBlocks.lean ====
/-
  Output window 2 of the kernel: the whole softplus array.

  The grid has 64 points; point `t` stages rows `32 t … 32 t + 31` of the row array (all 512 columns) and writes back
  the same rows of the first result.  The body stores, through the whole 32 × 512 block, the stable softplus of each
  loaded element, so what point `t` writes back is block `t` of ONE whole-array function — softplus of the row array,
  element by element — because the input block and the output block sit at the same place (block index `(t, 0)` for
  both, decided over the grid).  The 64 blocks tile the 2048 rows (row `r` lies in block `r / 32`), so after the run
  the first result IS that array.
-/
import proofs.«156679_j42116449304832_1_alg».proof.Proof.Gen.KernelIdeal.Value
import proofs.«156679_j42116449304832_1_alg».proof.Proof.Lanes

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Cert.DiffSoftplus (softplus softplusArr)

variable {F : FTy → Type} [FloatOps F]
variable (m : (ℓ : Loc nD τ sig) → Buf (Elt F) ℓ) (ρ : Dev nD → PrngReg)

/-- The body's one rectangle of the 32 × 512 buffer starts at the origin. -/
theorem origin2 : (![0, 0] : Fin 2 → Nat) = fun _ => 0 := funext fun a => by fin_cases a <;> rfl

/-- The value the body stores into the first result's buffer is softplus of the loaded block, element by element. -/
theorem stored_softplus (x0 : Vec F S32x512 .f32) : k0_pay1 x0 = fun j => softplus (x0 j) := rfl

/-- Decided over the 64 grid points: the row array's block and the first result's block have the same block index,
    which is `(t, 0)` with `t` below 64. -/
theorem same_block2 : ∀ t : Fin cfg0.N, win0_0.index t (0 : Fin 2) = win0_2.index t (0 : Fin 2)
    ∧ win0_0.index t (1 : Fin 2) = win0_2.index t (1 : Fin 2)
    ∧ win0_2.index t (0 : Fin 2) ≤ 63
    ∧ win0_2.index t (1 : Fin 2) = 0 :=
  (by decide +kernel : ∀ t : Fin grid0.N, _)

/-- Every row block `q < 64` is some grid point's. -/
theorem every_block2 : ∀ q : Fin 64, ∃ t : Fin cfg0.N, win0_2.index t = ![q.val, 0] :=
  (by decide +kernel : ∀ q : Fin 64, ∃ t : Fin grid0.N, win0_2.index t = ![q.val, 0])

/-- What point `t` writes back to the first result is block `t` of softplus of the row array. -/
theorem flushed_softplus (c : Dev nD) (t : Fin cfg0.N) :
    (dats m 0 c).flushed 2 t = ((cfg0.win 2).blk t).view.read (Elt F) (softplusArr (V m c main_arg0)) := by
  show (cfg0.win 2).cut (grid0.coords t) ((dats m 0 c).after 2 t) = _
  rw [after0_2]
  unfold out0_2
  rw [View.canon_unit_zero origin2]
  simp only [View.ld_unit_zero (S := S32x512) origin2]
  rw [stored_softplus]
  obtain ⟨e0, e1, -, -⟩ := same_block2 t
  funext j
  show softplus (V m c main_arg0 (((cfg0.win 0).blk t).view.emb j)) = softplus (V m c main_arg0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 32 + 1 * (j 0).val = win0_2.index t (0 : Fin 2) * 32 + 1 * (j 0).val; omega
    | ⟨1, _⟩ => show win0_0.index t (1 : Fin 2) * 512 + 1 * (j 1).val = win0_2.index t (1 : Fin 2) * 512 + 1 * (j 1).val; omega
  rw [h0]

/-- An index of the first result lies in point `t`'s block iff each coordinate lies in the block's range on its axis. -/
theorem mem_block2 (t : Fin cfg0.N) (i : S2048x512.Idx) :
    i ∈ ((cfg0.win 2).blk t).view.set ↔ ∀ a : Fin 2, win0_2.index t a * S32x512.size a ≤ (i a).val ∧ (i a).val < win0_2.index t a * S32x512.size a + S32x512.size a := by
  show i ∈ ((View.whole main_v0_0).slice (win0_2.rect t)).set ↔ _
  rw [View.set_slice_whole, Rect.mem_set_unit]
  exact Iff.rfl

/-- The 64 blocks tile the array: the entry in row `r` lies in block `r / 32`. -/
theorem covered2 (i : S2048x512.Idx) :
    ∃ t : Fin cfg0.N, (cfg0.win 2).flush t = true ∧ i ∈ ((cfg0.win 2).blk t).view.set := by
  have hi0 : (i 0).val < 2048 := (i 0).isLt
  have hi1 : (i 1).val < 512 := (i 1).isLt
  obtain ⟨t, ht⟩ := every_block2 ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_block2]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 512 ≤ (i 1).val ∧ (i 1).val < win0_2.index t (1 : Fin 2) * 512 + 512; omega

/-- After the run the first result is softplus of the row array as launched. -/
theorem final_softplus (c : Dev nD) :
    (dats m 0 c).arrAt 2 cfg0.N = softplusArr (m ((c : Thread nD τ).loc main_arg0)) :=
  (dats m 0 c).arrAt_eq_of_cover 2 (softplusArr (V m c main_arg0)) (fun t _ => flushed_softplus m c t) covered2

end Cert.KernelIdeal.Whole

end
-- ==== Proof.GatedBlocks.lean ====
/-
  Output window 3 of the kernel: the derivative array scaled by the logistic function of the row array.

  Point `t` of the 64-point grid stages rows `32 t … 32 t + 31` of the row array (32 × 512) and the same rows of the
  derivative array (32 × 512 × 128), and writes back those rows of the second result.  The body takes the logistic
  function of the row block, gives it a trailing unit axis, repeats it 128 times along that axis and multiplies by the
  derivative block: entry `(r, k, q)` of the stored block is `sigmoid(x[r, k]) · d[r, k, q]` of the loaded blocks — the
  generated reading of the block's one piece (`canon3_eq`).  The three blocks sit at the same rows (block index `t` on the
  leading axis, `0` on the others, decided over the grid), so what point `t` writes back is block `t` of ONE whole-array
  function: every entry of the derivative array times the logistic function of the row entry above it.  The 64 blocks
  tile the 2048 leading rows, so after the run the second result IS that array.
-/
import proofs.«156679_j42116449304832_1_alg».proof.Proof.Gen.KernelIdeal.Value
import proofs.«156679_j42116449304832_1_alg».proof.Proof.Lanes

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Cert.DiffSoftplus (gate gatedArr rowOf)

variable {F : FTy → Type} [FloatOps F]
variable (m : (ℓ : Loc nD τ sig) → Buf (Elt F) ℓ) (ρ : Dev nD → PrngReg)

/-- The body's rectangles of the 32 × 512 and the 32 × 512 × 128 buffers start at the origin. -/
theorem origin_rows : (![0, 0] : Fin 2 → Nat) = fun _ => 0 := funext fun a => by fin_cases a <;> rfl
theorem origin_cube : (![0, 0, 0] : Fin 3 → Nat) = fun _ => 0 := funext fun a => by fin_cases a <;> rfl

/-- Decided over the 64 grid points: the row block, the derivative block and the second result's block have the same
    block index on the leading axis, below 64, and block index `0` on every other axis. -/
theorem same_block3 : ∀ t : Fin cfg0.N, win0_0.index t (0 : Fin 2) = win0_3.index t (0 : Fin 3)
    ∧ win0_0.index t (1 : Fin 2) = 0
    ∧ win0_1.index t (0 : Fin 3) = win0_3.index t (0 : Fin 3)
    ∧ win0_1.index t (1 : Fin 3) = win0_3.index t (1 : Fin 3)
    ∧ win0_1.index t (2 : Fin 3) = win0_3.index t (2 : Fin 3)
    ∧ win0_3.index t (0 : Fin 3) ≤ 63
    ∧ win0_3.index t (1 : Fin 3) = 0
    ∧ win0_3.index t (2 : Fin 3) = 0 :=
  (by decide +kernel : ∀ t : Fin grid0.N, _)

/-- Every leading block `q < 64` is some grid point's. -/
theorem every_block3 : ∀ q : Fin 64, ∃ t : Fin cfg0.N, win0_3.index t = ![q.val, 0, 0] :=
  (by decide +kernel : ∀ q : Fin 64, ∃ t : Fin grid0.N, win0_3.index t = ![q.val, 0, 0])

/-- What point `t` writes back to the second result is block `t` of the scaled derivative array. -/
theorem flushed_gated (c : Dev nD) (t : Fin cfg0.N) :
    (dats m 0 c).flushed 3 t
      = ((cfg0.win 3).blk t).view.read (Elt F) (gatedArr (V m c main_arg0) (V m c main_arg1)) := by
  show (cfg0.win 3).cut (grid0.coords t) ((dats m 0 c).after 3 t) = _
  rw [after0_3]
  unfold out0_3
  simp only [View.ld_unit_zero (S := S32x512) origin_rows, View.ld_unit_zero (S := S32x512x128) origin_cube]
  obtain ⟨e0, e1, e2, e3, e4, -, e6, e7⟩ := same_block3 t
  funext j
  refine (canon3_eq (iblk m c 0 t) (iblk m c 1 t) j).trans ?_
  show FloatOps.mulf (FloatOps.logistic (V m c main_arg0 (((cfg0.win 0).blk t).view.emb (ix3_0 j))))
        (V m c main_arg1 (((cfg0.win 1).blk t).view.emb (ix3_1 j)))
      = FloatOps.mulf (FloatOps.logistic (V m c main_arg0 (rowOf (((cfg0.win 3).blk t).view.emb j))))
        (V m c main_arg1 (((cfg0.win 3).blk t).view.emb j))
  have hj0 : (j 0).val < 32 := (j 0).isLt
  have hj1 : (j 1).val < 512 := (j 1).isLt
  have hj2 : (j 2).val < 128 := (j 2).isLt
  have hrow : ((cfg0.win 0).blk t).view.emb (ix3_0 j) = rowOf (((cfg0.win 3).blk t).view.emb j) := by
    funext a; apply Fin.ext
    match a with
    | ⟨0, _⟩ => show win0_0.index t (0 : Fin 2) * 32 + 1 * (j 0).val = win0_3.index t (0 : Fin 3) * 32 + 1 * (j 0).val; omega
    | ⟨1, _⟩ => show win0_0.index t (1 : Fin 2) * 512 + 1 * (j 1).val = win0_3.index t (1 : Fin 3) * 512 + 1 * (j 1).val; omega
  have hcube : ((cfg0.win 1).blk t).view.emb (ix3_1 j) = ((cfg0.win 3).blk t).view.emb j := by
    funext a; apply Fin.ext
    match a with
    | ⟨0, _⟩ => show win0_1.index t (0 : Fin 3) * 32 + 1 * (j 0).val = win0_3.index t (0 : Fin 3) * 32 + 1 * (j 0).val; omega
    | ⟨1, _⟩ => show win0_1.index t (1 : Fin 3) * 512 + 1 * (j 1).val = win0_3.index t (1 : Fin 3) * 512 + 1 * (j 1).val; omega
    | ⟨2, _⟩ => show win0_1.index t (2 : Fin 3) * 128 + 1 * (j 2).val = win0_3.index t (2 : Fin 3) * 128 + 1 * (j 2).val; omega
  rw [hrow, hcube]

/-- An index of the second result lies in point `t`'s block iff each coordinate lies in the block's range on its axis. -/
theorem mem_block3 (t : Fin cfg0.N) (i : S2048x512x128.Idx) :
    i ∈ ((cfg0.win 3).blk t).view.set ↔ ∀ a : Fin 3, win0_3.index t a * S32x512x128.size a ≤ (i a).val ∧ (i a).val < win0_3.index t a * S32x512x128.size a + S32x512x128.size a := by
  show i ∈ ((View.whole main_v0_1).slice (win0_3.rect t)).set ↔ _
  rw [View.set_slice_whole, Rect.mem_set_unit]
  exact Iff.rfl

/-- The 64 blocks tile the array: the entry with leading coordinate `r` lies in block `r / 32`. -/
theorem covered3 (i : S2048x512x128.Idx) :
    ∃ t : Fin cfg0.N, (cfg0.win 3).flush t = true ∧ i ∈ ((cfg0.win 3).blk t).view.set := by
  have hi0 : (i 0).val < 2048 := (i 0).isLt
  have hi1 : (i 1).val < 512 := (i 1).isLt
  have hi2 : (i 2).val < 128 := (i 2).isLt
  obtain ⟨t, ht⟩ := every_block3 ⟨(i 0).val / 32, by omega⟩
  have q0 : win0_3.index t (0 : Fin 3) = (i 0).val / 32 := congrFun ht 0
  have q1 : win0_3.index t (1 : Fin 3) = 0 := congrFun ht 1
  have q2 : win0_3.index t (2 : Fin 3) = 0 := congrFun ht 2
  refine ⟨t, flush0_3 t, ?_⟩
  rw [mem_block3]
  intro a
  match a with
  | ⟨0, _⟩ => show win0_3.index t (0 : Fin 3) * 32 ≤ (i 0).val ∧ (i 0).val < win0_3.index t (0 : Fin 3) * 32 + 32; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- After the run the second result is the derivative array as launched, every entry scaled by the logistic function
    of the row entry above it. -/
theorem final_gated (c : Dev nD) :
    (dats m 0 c).arrAt 3 cfg0.N
      = gatedArr (m ((c : Thread nD τ).loc main_arg0)) (m ((c : Thread nD τ).loc main_arg1)) :=
  (dats m 0 c).arrAt_eq_of_cover 3 (gatedArr (V m c main_arg0) (V m c main_arg1)) (fun t _ => flushed_gated m c t) covered3

end Cert.KernelIdeal.Whole

end
-- ==== Proof.KernelRun.lean ====
/-
  The kernel's run with both results named as whole arrays.

  Every weakly fair execution of the kernel program terminates; afterwards the first result is softplus of the row array
  and the second the derivative array scaled by the logistic function of the row array, both of the arrays as launched,
  which are themselves unchanged.  This is the generated run, whose post names each result block by block, with the two
  block-to-array readings put in.
-/
import proofs.«156679_j42116449304832_1_alg».proof.Proof.SoftplusBlocks
import proofs.«156679_j42116449304832_1_alg».proof.Proof.GatedBlocks

noncomputable section

namespace Cert.KernelIdeal.Whole

open Cert.KernelIdeal Cert.KernelIdeal.Gen Idealize.ShloMosaic Idealize.ShloMosaic.TcCoe Idealize.SL.Sem
open Cert.DiffSoftplus (softplusArr gatedArr)

variable {F : FTy → Type} [FloatOps F]
variable (m : (ℓ : Loc nD τ sig) → Buf (Elt F) ℓ) (ρ : Dev nD → PrngReg)

theorem run : θ_run defs (onTc (τ := τ) (main (F := F))) ⟨m, fun _ => 0, ρ⟩ fun r => ∀ c : Dev nD,
      r.2.mem ((c : Thread nD τ).loc main_v0_0) = softplusArr (m ((c : Thread nD τ).loc main_arg0))
      ∧ r.2.mem ((c : Thread nD τ).loc main_v0_1)
          = gatedArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_softplus m c),
      (h c).2.1.trans (final_gated m c),
      (h c).2.2.1,
      (h c).2.2.2⟩)
    (Cert.KernelIdeal.Value.run_blocks m ρ)

end Cert.KernelIdeal.Whole

end
-- ==== Proof.ReferenceArrays.lean ====
/-
  The reference program's two results are the same two arrays.

  The host program computes softplus through its outlined helper — `max(x, 0) + log1p(exp(-|x - 0|))` under the guard
  `x - 0 ≠ x - 0`, with the zero a scalar constant broadcast to the array's shape — and the second result as
  `(1 / (1 + exp(-x)))` given a trailing unit axis, repeated 128 times along it, times the derivative array.  Read at an
  index, every broadcast of a scalar is that scalar, and the two broadcasts of the quotient read it at the entry's first two
  coordinates: the row entry above it.  What is left at each index is the host's spelling of the two element functions,
  which on the extended reals are the kernel's.
-/
import proofs.«156679_j42116449304832_1_alg».proof.Proof.Gen.ReferenceIdeal.Read
import proofs.«156679_j42116449304832_1_alg».proof.Proof.Lanes

noncomputable section

namespace Cert.ReferenceIdeal.Whole

open Cert.ReferenceIdeal Cert.ReferenceIdeal.Read Idealize.ShloMosaic
open Cert.DiffSoftplus (softplusArr gatedArr rowOf hostSoftplus hostGate hostSoftplus_eq hostGate_eq)

/-- The reference's first result, at every index, is softplus of the row array there. -/
theorem softplus_stage (x0 : (⟨S2048x512, .f32⟩ : BufTy).Contents (Elt Ideal)) :
    val_main_v0 (F := Ideal) x0 = softplusArr (F := Ideal) x0 := by
  funext i
  simp only [val_main_v0_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  exact hostSoftplus_eq (x0 i)

/-- The two broadcasts read the quotient at the entry's first two coordinates. -/
theorem row_above (i : S2048x512x128.Idx) : idx_main_v7 (idx_main_v8 i) = rowOf i :=
  funext fun a => Fin.ext (by match a with | ⟨0, _⟩ => rfl | ⟨1, _⟩ => rfl)

/-- The reference's second result, at every index, is the derivative entry there scaled by the logistic function of
    the row entry above it. -/
theorem gated_stage (x0 : (⟨S2048x512, .f32⟩ : BufTy).Contents (Elt Ideal))
    (x1 : (⟨S2048x512x128, .f32⟩ : BufTy).Contents (Elt Ideal)) :
    val_main_v9 (F := Ideal) x0 x1 = gatedArr (F := Ideal) x0 x1 := by
  funext i
  simp only [val_main_v9_apply, val_main_v8_apply, val_main_v7_apply, val_main_v6_apply, val_main_v5_apply,
    val_main_v4_apply, val_main_v3_apply, val_main_v2_apply, val_main_v1_apply, val_main_cst_apply,
    val_main_cst_0_apply, row_above]
  exact hostGate_eq (x0 (rowOf i)) (x1 i)

end Cert.ReferenceIdeal.Whole

end
-- ==== Proof.lean ====
/-
  The differential softplus kernel against its jnp reference, over the extended reals.

  Inputs: a row array `x` of shape [2048, 512] and a derivative array `d` of shape [2048, 512, 128].  Results: `softplus(x)`
  and `sigmoid(x)[r, k] · d[r, k, q]`.  The kernel runs a 64-point grid, point `t` handling rows `32 t … 32 t + 31` of all
  arrays; the reference computes both results as whole-array host operations.

  Why the two agree, element by element, on EVERY extended-real input (the finiteness of the inputs is never used):
    * both compute softplus as `max(x, 0) + log1p(exp(-|x|))`; the kernel writes `0 - |x|` for the host's negation, which
      is the same extended real, and its "ordered not equal" guard is the host's "unordered not equal" on a linear order;
    * the kernel's single logistic operation is, by definition, the host's quotient `1 / (1 + exp(-x))`;
    * the kernel's trailing unit axis repeated 128 times and the host's two broadcasts both read the row entry at an
      entry's first two coordinates;
    * the kernel's 64 blocks tile each result, and what each point writes back is its block of one whole-array function
      (`SoftplusBlocks`, `GatedBlocks`), which is the function the reference's operations compute (`ReferenceArrays`).

  The three frames are the generated ones (the reference's is its run with the results dropped); the idealization rewrote
  nothing, so `preserves` has nothing to state.
-/
import proofs.«156679_j42116449304832_1_alg».proof.Defs
import proofs.«156679_j42116449304832_1_alg».proof.Proof.Gen.Kernel
import proofs.«156679_j42116449304832_1_alg».proof.Proof.Gen.Kernel.Skeleton
import proofs.«156679_j42116449304832_1_alg».proof.Proof.Gen.Kernel.Launch
import proofs.«156679_j42116449304832_1_alg».proof.Proof.Gen.Kernel.Points
import proofs.«156679_j42116449304832_1_alg».proof.Proof.Gen.Kernel.Frame
import proofs.«156679_j42116449304832_1_alg».proof.Proof.Gen.KernelIdeal
import proofs.«156679_j42116449304832_1_alg».proof.Proof.Gen.KernelIdeal.Skeleton
import proofs.«156679_j42116449304832_1_alg».proof.Proof.Gen.KernelIdeal.Launch
import proofs.«156679_j42116449304832_1_alg».proof.Proof.Gen.KernelIdeal.Points
import proofs.«156679_j42116449304832_1_alg».proof.Proof.Gen.KernelIdeal.Frame
import proofs.«156679_j42116449304832_1_alg».proof.Proof.Gen.ReferenceIdeal
import proofs.«156679_j42116449304832_1_alg».proof.Proof.Gen.Pre_finite_inputs
import proofs.«156679_j42116449304832_1_alg».proof.Proof.Gen.KernelIdeal.Value
import proofs.«156679_j42116449304832_1_alg».proof.Proof.Gen.ReferenceIdeal.Run
import proofs.«156679_j42116449304832_1_alg».proof.Proof.Gen.ReferenceIdeal.Read
import proofs.«156679_j42116449304832_1_alg».proof.Proof.KernelRun
import proofs.«156679_j42116449304832_1_alg».proof.Proof.ReferenceArrays
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- The reference is a straight line of host operations: its run, with what it says of the results dropped. -/
theorem frame_referenceIdeal : Cert.frame_ReferenceIdeal :=
  fun m ρ _ => (θ_run Cert.ReferenceIdeal.defs _ _).mono (fun _ h c => (h c).2.2)
    (Cert.ReferenceIdeal.Value.run (F := Ideal) m ρ)

/-- From memories that agree on the two arguments both programs end with softplus of the row array and the derivative
    array scaled by the logistic function of the row array: the kernel by its blocks, the reference by its operations
    read at an index. -/
theorem algebraic : Cert.algebraic_KernelIdeal_ReferenceIdeal := by
  intro m ρ m' ρ' _ hagree
  refine ⟨_, _, Cert.KernelIdeal.Whole.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v0_eq, Cert.ReferenceIdeal.Whole.softplus_stage, (hagree c).1]
  · rw [Cert.ReferenceIdeal.Read.val_main_v9_eq, Cert.ReferenceIdeal.Whole.gated_stage, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
